-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v50 : FVec F S128 .f32) : IVec S_ 1 :=
  let main_cst_19 : FVec F S_ .f32 := constant S_ .f32 0x00000000#32
  let main_v51 : FVec F S128 .f32 := broadcastInDim S128 ![] bcast_S_S128 main_cst_19
  let main_v52 : IVec S128 1 := cmpf .ogt main_v50 main_v51
  let main_c_20 : IVec S_ 1 := constantI S_ 1 1#1
  let main_v53 : IVec S_ 1 := (fun x v => Host.reduce IntOp.andi x v reducesTo_S128_S_d0 h_S_) main_v52 main_c_20
  let main_v54 : IVec S_ 1 := andi main_v48 main_v53
  main_v54

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_cst_18 : FVec F S_ .f32 := constant S_ .f32 0x3727C5AC#32
  let main_v49 : FVec F S128 .f32 := broadcastInDim S128 ![] bcast_S_S128 main_cst_18
  let main_v50 : FVec F S128 .f32 := addf main_arg8 main_v49
  fn_part3 (F := F) main_v48 main_v50

def fn_part1 {F : FTy → Type} [FloatOps F] (main_arg5 : FVec F S128 .f32) (main_arg6 : FVec F S128 .f32) (main_arg7 : FVec F S128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 103
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S50000, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S1x128, .f32⟩
  | .hbm, ⟨80, _⟩ => ⟨S50000x128, .f32⟩
  | .hbm, ⟨81, _⟩ => ⟨S50000x64, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x64, .f32⟩
  | .hbm, ⟨91, _⟩ => ⟨S850000x1, .f32⟩
  | .hbm, ⟨92, _⟩ => ⟨S850000x64, .f32⟩
  | .hbm, ⟨93, _⟩ => ⟨S850000x64, .f32⟩
  | .hbm, ⟨94, _⟩ => ⟨S_, .f32⟩
  | .hbm, ⟨95, _⟩ => ⟨S50000x64, .f32⟩
  | .hbm, ⟨96, _⟩ => ⟨S850000x1, .i32⟩
  | .hbm, ⟨97, _⟩ => ⟨S50000x64, .f32⟩
  | .hbm, ⟨98, _⟩ => ⟨S_, .f32⟩
  | .hbm, ⟨99, _⟩ => ⟨S64, .f32⟩
  | .hbm, ⟨100, _⟩ => ⟨S1x64, .f32⟩
  | .hbm, ⟨101, _⟩ => ⟨S1x64, .f32⟩
  | .hbm, ⟨102, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S_S64 : S_.BroadcastsInDim S64 (![] : Fin 0 → Fin S64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S50000, .i32⟩
  | 17 => ⟨S850000, .i32⟩
  | 18 => ⟨S850000, .i32⟩
  | 19 => ⟨S_, .f32⟩
  | 20 => ⟨S50000, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x64, .f32⟩
  | 93 => ⟨S50000, .i32⟩
  | 94 => ⟨S850000, .i32⟩
  | 95 => ⟨S850000, .i32⟩
  | 96 => ⟨S_, .f32⟩
  | 97 => ⟨S50000, .f32⟩
  | 98 => ⟨S850000, .f32⟩
  | 99 => ⟨S_, .f32⟩
  | 100 => ⟨S50000, .f32⟩
  | 101 => ⟨S850000x1, .i32⟩
  | 102 => ⟨S50000, .f32⟩
  | 103 => ⟨S_, .f32⟩
  | 104 => ⟨S50000, .f32⟩
  | 105 => ⟨S50000, .i1⟩
  | 106 => ⟨S50000, .f32⟩
  | 107 => ⟨S_, .f32⟩
  | 108 => ⟨S_, .f32⟩
  | 109 => ⟨S50000, .f32⟩
  | 110 => ⟨S50000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S850000, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000, .f32⟩
  | 2 => ⟨S850000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x64, .f32⟩
  | 12 => ⟨S850000x1, .f32⟩
  | 13 => ⟨S850000x64, .f32⟩
  | 14 => ⟨S850000x64, .f32⟩
  | 15 => ⟨S_, .f32⟩
  | 16 => ⟨S50000x64, .f32⟩
  | 17 => ⟨S850000x1, .i32⟩
  | 18 => ⟨S50000x64, .f32⟩
  | 19 => ⟨S1x64, .f32⟩
  | 20 => ⟨S50000x64, .f32⟩
  | 21 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_cst_11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_13 : Ref sig .tc := ⟨.hbm, 107, rfl⟩
abbrev main_call2_v0 : Ref sig .tc := ⟨.hbm, 108, rfl⟩
abbrev main_call2_v1 : Ref sig .tc := ⟨.hbm, 109, rfl⟩
abbrev main_v77 : Ref sig .tc := ⟨.hbm, 110, rfl⟩
abbrev main_c_14 : Ref sig .tc := ⟨.hbm, 111, rfl⟩
abbrev main_v78 : Ref sig .tc := ⟨.hbm, 112, rfl⟩
abbrev main_v79 : Ref sig .tc := ⟨.hbm, 113, rfl⟩
abbrev main_c_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_16 : Ref sig .tc := ⟨.hbm, 121, rfl⟩
abbrev main_v86 : Ref sig .tc := ⟨.hbm, 122, rfl⟩
abbrev main_v87 : Ref sig .tc := ⟨.hbm, 123, rfl⟩
abbrev main_c_17 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_18 : Ref sig .tc := ⟨.hbm, 131, rfl⟩
abbrev main_v94 : Ref sig .tc := ⟨.hbm, 132, rfl⟩
abbrev main_v95 : Ref sig .tc := ⟨.hbm, 133, rfl⟩
abbrev main_c_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_20 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Terms.lean ====
/-
  The graph convolution network as terms of its arguments: the pieces the two programs share, and the pieces in which
  they differ.

  Both programs compute, from node features `x`, an edge list, edge weights and the layers' parameters,
      out = Agg (relu (BN (Agg (x · W1) + b1)) · W2) + b2,
  where `Agg y` gathers the rows of `y` at each edge's source, scales every gathered row by the edge's symmetric
  normalisation and adds it into the row of the edge's destination (self loops of weight one appended), and `BN` is
  the evaluation-mode batch normalisation `(h - mean) · rsqrt (var + ε) · γ + β`, one column at a time.
  The reference spells exactly this. The kernel computes the two matrix products and the two columnwise affine maps
  in tiled regions of 5000 rows, and folds bias and normalisation into one scale row `γ · rsqrt (var + ε)` and one
  shift row `β + (b1 - mean) · scale`: it computes `relu (Agg (x · W1) · scale + shift)`, and in the last layer
  `Agg (…) · 1 + b2`.

  Here: `agg128` / `agg64` (the aggregation, as a function of the matrix being aggregated — the edge arithmetic
  stays inside, never opened), `bnRelu` (the reference's normalisation and relu), `scaleRow` / `shiftRow` /
  `onesRow` / `biasRow` (the rows the kernel prepares), `refTerm_eq` (the reference's result is the composition
  above), and `kernelTerm` (the kernel's result, over four functions standing for what its four regions compute).
  Everything is stated for any float interpretation; only the two affine region functions are stated on the extended
  reals.
-/
import proofs.«137096_j79577154060348_1_alg».proof.Proof.Gen.KernelIdeal
import proofs.«137096_j79577154060348_1_alg».proof.Proof.Gen.ReferenceIdeal.Read
import Idealize.ShloMosaic.Lib.ValueIdx

noncomputable section

namespace Cert.Gcn

open Idealize.ShloMosaic Idealize.ShloMosaic.ValueIdx Cert.ReferenceIdeal Cert.ReferenceIdeal.Read

variable {F : FTy → Type} [FloatOps F]

/-- Contents of a float array of shape `S`. -/
abbrev Arr (F : FTy → Type) (S : Shape) : Type := (⟨S, .f32⟩ : BufTy).Contents (Elt F)

/-- Aggregation of a 50000×128 matrix over the edges (self loops appended): gather the source rows, scale each by its
    edge's normalisation, add into the destination rows. -/
def agg128 (x1 : (⟨S2x800000, .i32⟩ : BufTy).Contents (Elt F)) (x2 : Arr F S800000) (y : Arr F S50000x128) : Arr F S50000x128 :=
  Host.scatterAdd scatter_S50000x128_S850000x1_S850000x128_1_0_0_1 (val_main_v43 (F := F)) (val_main_v44 (F := F) x1)
    (mulf (Host.gather gather_S50000x128_S850000x1_S850000x128_1_0_n_n_0_1_1128 y (val_main_v38 (F := F) x1)) (val_main_v41 (F := F) x1 x2))

/-- The same aggregation of a 50000×64 matrix. -/
def agg64 (x1 : (⟨S2x800000, .i32⟩ : BufTy).Contents (Elt F)) (x2 : Arr F S800000) (z : Arr F S50000x64) : Arr F S50000x64 :=
  Host.scatterAdd scatter_S50000x64_S850000x1_S850000x64_1_0_0_1 (val_main_v104 (F := F)) (val_main_v105 (F := F) x1)
    (mulf (Host.gather gather_S50000x64_S850000x1_S850000x64_1_0_n_n_0_1_164 z (val_main_v99 (F := F) x1)) (val_main_v102 (F := F) x1 x2))

/-- The first layer's matrix product `x · W1`. -/
abbrev dot128 (x0 : Arr F S50000x128) (x3 : Arr F S128x128) : Arr F S50000x128 := val_main_v4 (F := F) x0 x3

/-- The second layer's matrix product `h · W2`. -/
def dot64 (h : Arr F S50000x128) (x9 : Arr F S128x64) : Arr F S50000x64 :=
  Host.dotGeneral dot_S50000x128_S128x64_S50000x64_1_0_0_1_n_n none h x9

/-- The reference's bias, batch normalisation and relu of an aggregated matrix `a`:
    `max ((((a + b1) - mean) · rsqrt (var + ε)) · γ + β) 0`, the rows broadcast down the columns. -/
def bnRelu (a : Arr F S50000x128) (x4 x5 x6 x7 x8 : Arr F S128) : Arr F S50000x128 :=
  maximumf (addf (mulf (mulf (subf (addf a (val_main_v47 (F := F) x4)) (val_main_v50 (F := F) x7)) (val_main_v56 (F := F) x8))
    (val_main_v59 (F := F) x5)) (val_main_v62 (F := F) x6)) (val_main_call1_v0 (F := F))

/-- The reference's result is the composition: aggregate `x · W1`, normalise, multiply by `W2`, aggregate, add `b2`. -/
theorem refTerm_eq (x0 : Arr F S50000x128) (x1 : (⟨S2x800000, .i32⟩ : BufTy).Contents (Elt F)) (x2 : Arr F S800000)
    (x3 : Arr F S128x128) (x4 x5 x6 x7 x8 : Arr F S128) (x9 : Arr F S128x64) (x10 : Arr F S64) :
    val_main_v109 (F := F) x0 x1 x2 x3 x4 x5 x6 x7 x8 x9 x10
      = addf (agg64 x1 x2 (dot64 (bnRelu (agg128 x1 x2 (dot128 x0 x3)) x4 x5 x6 x7 x8) x9)) (val_main_v108 (F := F) x10) := rfl

/-- The kernel's scale, `γ · rsqrt (var + ε)`, as a vector of 128 columns. -/
def scaleVec (x5 x8 : Arr F S128) : Arr F S128 :=
  mulf x5 (Host.rsqrt (addf x8 (broadcastInDim S128 ![] Cert.KernelIdeal.Facts₀.bcast_S_S128 (constant S_ .f32 0x3727C5AC#32))))

/-- The kernel's shift, `β + (b1 - mean) · scale`. -/
def shiftVec (x4 x5 x6 x7 x8 : Arr F S128) : Arr F S128 :=
  addf x6 (mulf (subf x4 x7) (scaleVec x5 x8))

/-- The scale as the 1×128 row the first affine region reads. -/
def scaleRow (x5 x8 : Arr F S128) : Arr F S1x128 :=
  shapeCast S1x128 (scaleVec x5 x8) Cert.KernelIdeal.Facts₀.shapeCasts_S128_S1x128

/-- The shift as a 1×128 row. -/
def shiftRow (x4 x5 x6 x7 x8 : Arr F S128) : Arr F S1x128 :=
  shapeCast S1x128 (shiftVec x4 x5 x6 x7 x8) Cert.KernelIdeal.Facts₀.shapeCasts_S128_S1x128

/-- The last layer's scale: a 1×64 row of ones. -/
def onesRow : Arr F S1x64 :=
  shapeCast S1x64 (broadcastInDim S64 ![] Cert.KernelIdeal.Facts₀.bcast_S_S64 (constant S_ .f32 0x3F800000#32)) Cert.KernelIdeal.Facts₀.shapeCasts_S64_S1x64

/-- The last layer's shift: `b2` as a 1×64 row. -/
def biasRow (x10 : Arr F S64) : Arr F S1x64 :=
  shapeCast S1x64 x10 Cert.KernelIdeal.Facts₀.shapeCasts_S64_S1x64

/-- The kernel's result over four functions `f0 … f3` standing for what its four regions leave in their output
    arrays: product, aggregation, affine map with relu, product, aggregation, affine map. -/
def kernelTerm (f0 : Arr F S50000x128 → Arr F S128x128 → Arr F S50000x128)
    (f1 : Arr F S50000x128 → Arr F S1x128 → Arr F S1x128 → Arr F S50000x128)
    (f2 : Arr F S50000x128 → Arr F S128x64 → Arr F S50000x64)
    (f3 : Arr F S50000x64 → Arr F S1x64 → Arr F S1x64 → Arr F S50000x64)
    (x0 : Arr F S50000x128) (x1 : (⟨S2x800000, .i32⟩ : BufTy).Contents (Elt F)) (x2 : Arr F S800000)
    (x3 : Arr F S128x128) (x4 x5 x6 x7 x8 : Arr F S128) (x9 : Arr F S128x64) (x10 : Arr F S64) : Arr F S50000x64 :=
  f3 (agg64 x1 x2 (f2 (f1 (agg128 x1 x2 (f0 x0 x3)) (scaleRow x5 x8) (shiftRow x4 x5 x6 x7 x8)) x9)) onesRow (biasRow x10)

/-- What the first affine region computes, on the extended reals: every entry times its column's scale, plus its
    column's shift, cut off below at zero. -/
def aff1 (a : Arr Ideal S50000x128) (s t : Arr Ideal S1x128) : Arr Ideal S50000x128 :=
  fun i => max (a i * s (ix2 ⟨0, Nat.one_pos⟩ (i 1)) + t (ix2 ⟨0, Nat.one_pos⟩ (i 1))) (0 : EReal)

/-- What the last affine region computes, on the extended reals: every entry times its column's scale plus its column's
    shift. -/
def aff3 (a : Arr Ideal S50000x64) (s t : Arr Ideal S1x64) : Arr Ideal S50000x64 :=
  fun i => a i * s (ix2 ⟨0, Nat.one_pos⟩ (i 1)) + t (ix2 ⟨0, Nat.one_pos⟩ (i 1))

end Cert.Gcn

end
-- ==== Proof.RunK.lean ====
/-
  The kernel's run with its result named.

  Every weakly fair execution of the kernel's program terminates without a fault; at the end the argument arrays are as
  launched and the result buffer holds the last boundary's contents of the fold through the program's segments — host
  stretches applied in order, each region's arrays at what its write-backs leave. The launch is the one that gives the
  frame (the segments' chain from "every unscoped buffer at the launch contents" to "every unscoped buffer at the last
  boundary's contents"); the only addition is that the final state is also read at the result buffer.
-/
import proofs.«137096_j79577154060348_1_alg».proof.Proof.Gen.KernelIdeal.Frame

set_option maxRecDepth 16384

noncomputable section

namespace Cert.Gcn.RunK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination without fault, the result buffer at the last boundary's contents, the arguments unchanged. -/
theorem run : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.Gcn.RunK

end
-- ==== Proof.LibRegionOp.lean ====
/-
  A pipelined region with one output array, read as one more line of the host program around it.

  A region's exit contents are its entry contents with the pipeline's arrays replaced by what the pipeline leaves in
  them. When every array but one is left as the region found it, and that one holds the value a host operation
  writing only that array would have computed from the entry contents, the exit contents ARE that operation's
  result on the entry contents. A program of several regions among host lines then reads, buffer by buffer, as one
  straight line of operations.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at window `o`'s array,
    where they hold what `op` — an operation writing that array only — computes from `V`: they are `op.result V`,
    at every buffer of the device. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (o : Fin W) (op : HloOp τ sig Val)
    (hw : op.writes = {Proc.devRef .tc (arrRef win o)})
    (hin : ∀ w, w ≠ o → A w = V (Proc.devRef .tc (arrRef win w)))
    (hout : A o = op.result V (Proc.devRef .tc (arrRef win o))) :
    withArrays win c V A = op.result V := by
  funext b
  by_cases h : ∃ w, Proc.devRef .tc (arrRef win w) = b
  · obtain ⟨w, rfl⟩ := h
    rw [withArrays_arr win hinj c V A w]
    by_cases hwo : w = o
    · subst hwo; exact hout
    · rw [hin w hwo]
      refine (op.result_of_not_mem V ?_).symm
      rw [hw, Finset.mem_singleton]
      exact fun e => hwo (hinj (Proc.devRef_injective _ e))
  · have hb : withArrays win c V A b = V b := by unfold withArrays; rw [dif_neg h]
    rw [hb]
    refine (op.result_of_not_mem V ?_).symm
    rw [hw, Finset.mem_singleton]
    exact fun e => h ⟨o, e.symm⟩

end Cert.RegionOp

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.Fold.lean ====
/-
  The kernel's run, read as one straight line.

  The kernel's program is five stretches of host operations around four tiled regions. A region changes the contents of
  its own arrays only, and of those only its output array; so if its output array ends at a function `f` of its input
  arrays, the region acts on the buffer contents exactly like one more host operation "output := f inputs". With each
  region replaced by such an operation the whole program is a single list of operations, and the result buffer reads
  back, operation by operation, as `kernelTerm f0 f1 f2 f3` of the argument arrays — for any float interpretation and
  any four functions the regions are known to compute.
-/
import proofs.«137096_j79577154060348_1_alg».proof.Proof.Gen.KernelIdeal.Frame
import proofs.«137096_j79577154060348_1_alg».proof.Proof.Terms
import proofs.«137096_j79577154060348_1_alg».proof.Proof.LibRegionOp
import proofs.«137096_j79577154060348_1_alg».proof.Proof.LibCat

set_option maxRecDepth 16384

noncomputable section

namespace Cert.Gcn.Fold

open Idealize.ShloMosaic Idealize.ShloMosaic.TcCoe Idealize.ShloMosaic.StableHlo Cert.KernelIdeal Cert.KernelIdeal.Gen

variable {F : FTy → Type} [FloatOps F]
variable (m : (ℓ : Loc nD τ sig) → Buf (Elt F) ℓ) (ρ : Dev nD → PrngReg)
variable (f0 : Arr F S50000x128 → Arr F S128x128 → Arr F S50000x128)
  (f1 : Arr F S50000x128 → Arr F S1x128 → Arr F S1x128 → Arr F S50000x128)
  (f2 : Arr F S50000x128 → Arr F S128x64 → Arr F S50000x64)
  (f3 : Arr F S50000x64 → Arr F S1x64 → Arr F S1x64 → Arr F S50000x64)

/-- What the four regions compute: from any entry contents, each region's output array ends at its function of the
    region's input arrays. -/
structure Regions : Prop where
  r0 : ∀ (V : (c : Dev nD) → (b : Ref sig .tc) → Buf (Elt F) ((c : Thread nD τ).loc b)) (c : Dev nD),
    (dat0 (F := F) V c).arrAt 2 cfg0.N = f0 (V c main_arg0) (V c main_arg3)
  r1 : ∀ (V : (c : Dev nD) → (b : Ref sig .tc) → Buf (Elt F) ((c : Thread nD τ).loc b)) (c : Dev nD),
    (dat1 (F := F) V c).arrAt 3 cfg1.N = f1 (V c main_v45) (V c main_v53) (V c main_v54)
  r2 : ∀ (V : (c : Dev nD) → (b : Ref sig .tc) → Buf (Elt F) ((c : Thread nD τ).loc b)) (c : Dev nD),
    (dat2 (F := F) V c).arrAt 2 cfg2.N = f2 (V c main_v55) (V c main_arg9)
  r3 : ∀ (V : (c : Dev nD) → (b : Ref sig .tc) → Buf (Elt F) ((c : Thread nD τ).loc b)) (c : Dev nD),
    (dat3 (F := F) V c).arrAt 3 cfg3.N = f3 (V c main_v69) (V c main_v71) (V c main_v72)

/-- Each region as the host operation that writes its output array. -/
def op0 : HloOp τ sig (Elt F) := StableHlo.binary main_arg0 main_arg3 main_v32 f0
def op1 : HloOp τ sig (Elt F) := StableHlo.ternary main_v45 main_v53 main_v54 main_v55 f1
def op2 : HloOp τ sig (Elt F) := StableHlo.binary main_v55 main_arg9 main_v56 f2
def op3 : HloOp τ sig (Elt F) := StableHlo.ternary main_v69 main_v71 main_v72 main_v73 f3

variable {f0 f1 f2 f3}

/-- Region 0's exit contents are its entry contents after the operation "v32 := f0 arg0 arg3". -/
theorem W4_eq (h : Regions f0 f1 f2 f3) (c : Dev nD) : W4 m ρ c = (op0 f0).result (W3 m ρ c) := by
  unfold W4
  refine Cert.RegionOp.withArrays_eq_result spec0 launch0.win.arr_inj c _ _ 2 (op0 f0) rfl ?_ ?_
  · intro w hw
    match w, hw with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, hw => exact absurd rfl hw
  · exact (h.r0 (V3 m ρ) c).trans (StableHlo.binary_result main_arg0 main_arg3 main_v32 f0 _ _ _ (W3 m ρ c)).symm

/-- Region 1's exit contents are its entry contents after "v55 := f1 v45 v53 v54". -/
theorem W6_eq (h : Regions f0 f1 f2 f3) (c : Dev nD) : W6 m ρ c = (op1 f1).result (W5 m ρ c) := by
  unfold W6
  refine Cert.RegionOp.withArrays_eq_result spec1 launch1.win.arr_inj c _ _ 3 (op1 f1) rfl ?_ ?_
  · intro w hw
    match w, hw with
    | ⟨0, _⟩, _ => exact ((dat1 (V5 m ρ) c).arrAt_in 0 rfl _).trans (A_eq1 (V5 m ρ) c 0)
    | ⟨1, _⟩, _ => exact ((dat1 (V5 m ρ) c).arrAt_in 1 rfl _).trans (A_eq1 (V5 m ρ) c 1)
    | ⟨2, _⟩, _ => exact ((dat1 (V5 m ρ) c).arrAt_in 2 rfl _).trans (A_eq1 (V5 m ρ) c 2)
    | ⟨3, _⟩, hw => exact absurd rfl hw
  · exact (h.r1 (V5 m ρ) c).trans (StableHlo.ternary_result main_v45 main_v53 main_v54 main_v55 f1 _ _ _ _ (W5 m ρ c)).symm

/-- Region 2's exit contents are its entry contents after "v56 := f2 v55 arg9". -/
theorem W7_eq (h : Regions f0 f1 f2 f3) (c : Dev nD) : W7 m ρ c = (op2 f2).result (W6 m ρ c) := by
  unfold W7
  refine Cert.RegionOp.withArrays_eq_result spec2 launch2.win.arr_inj c _ _ 2 (op2 f2) rfl ?_ ?_
  · intro w hw
    match w, hw with
    | ⟨0, _⟩, _ => exact ((dat2 (V6 m ρ) c).arrAt_in 0 rfl _).trans (A_eq2 (V6 m ρ) c 0)
    | ⟨1, _⟩, _ => exact ((dat2 (V6 m ρ) c).arrAt_in 1 rfl _).trans (A_eq2 (V6 m ρ) c 1)
    | ⟨2, _⟩, hw => exact absurd rfl hw
  · exact (h.r2 (V6 m ρ) c).trans (StableHlo.binary_result main_v55 main_arg9 main_v56 f2 _ _ _ (W6 m ρ c)).symm

/-- Region 3's exit contents are its entry contents after "v73 := f3 v69 v71 v72". -/
theorem W9_eq (h : Regions f0 f1 f2 f3) (c : Dev nD) : W9 m ρ c = (op3 f3).result (W8 m ρ c) := by
  unfold W9
  refine Cert.RegionOp.withArrays_eq_result spec3 launch3.win.arr_inj c _ _ 3 (op3 f3) rfl ?_ ?_
  · intro w hw
    match w, hw with
    | ⟨0, _⟩, _ => exact ((dat3 (V8 m ρ) c).arrAt_in 0 rfl _).trans (A_eq3 (V8 m ρ) c 0)
    | ⟨1, _⟩, _ => exact ((dat3 (V8 m ρ) c).arrAt_in 1 rfl _).trans (A_eq3 (V8 m ρ) c 1)
    | ⟨2, _⟩, _ => exact ((dat3 (V8 m ρ) c).arrAt_in 2 rfl _).trans (A_eq3 (V8 m ρ) c 2)
    | ⟨3, _⟩, hw => exact absurd rfl hw
  · exact (h.r3 (V8 m ρ) c).trans (StableHlo.ternary_result main_v69 main_v71 main_v72 main_v73 f3 _ _ _ _ (W8 m ρ c)).symm

end Cert.Gcn.Fold

end
-- ==== Proof.FoldRead.lean ====
/-
  The kernel's result buffer at the last boundary, as a term of the argument arrays.

  With each region read as the operation that writes its output array, the boundary contents are one straight line of
  operations from the launch memory; reading the result buffer back through that line, one operation at a time, gives
  the composition: product, aggregation, affine map with relu, product, aggregation, affine map.
-/
import proofs.«137096_j79577154060348_1_alg».proof.Proof.Fold

set_option maxRecDepth 16384

noncomputable section

namespace Cert.Gcn.Fold

open Idealize.ShloMosaic Idealize.ShloMosaic.TcCoe Idealize.ShloMosaic.StableHlo Cert.KernelIdeal Cert.KernelIdeal.Gen

variable {F : FTy → Type} [FloatOps F]
variable (m : (ℓ : Loc nD τ sig) → Buf (Elt F) ℓ) (ρ : Dev nD → PrngReg)
variable {f0 : Arr F S50000x128 → Arr F S128x128 → Arr F S50000x128}
  {f1 : Arr F S50000x128 → Arr F S1x128 → Arr F S1x128 → Arr F S50000x128}
  {f2 : Arr F S50000x128 → Arr F S128x64 → Arr F S50000x64}
  {f3 : Arr F S50000x64 → Arr F S1x64 → Arr F S1x64 → Arr F S50000x64}

/-- The last boundary's contents as one line of operations from the launch memory. -/
theorem W9_line (h : Regions f0 f1 f2 f3) (c : Dev nD) :
    W9 m ρ c = (op3 f3).result (after hostOps3 ((op2 f2).result ((op1 f1).result (after hostOps1 ((op0 f0).result
      (after hostOps0_2 (after hostOps0_1 (after hostOps0 (W0 m ρ c))))))))) := by
  rw [W9_eq m ρ h c]
  show (op3 f3).result (after hostOps3 (W7 m ρ c)) = _
  rw [W7_eq m ρ h c, W6_eq m ρ h c]
  show (op3 f3).result (after hostOps3 ((op2 f2).result ((op1 f1).result (after hostOps1 (W4 m ρ c))))) = _
  rw [W4_eq m ρ h c]

set_option maxHeartbeats 4000000 in
/-- The result buffer at the last boundary is the kernel's term of the argument arrays. -/
theorem result_eq (h : Regions f0 f1 f2 f3) (c : Dev nD) :
    W9 m ρ c (Proc.devRef .tc main_v73)
      = kernelTerm f0 f1 f2 f3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W9_line m ρ h c]
  unfold op0 op1 op2 op3
  after_results_simp
  simp only [Cert.Lib.ofBuf_toBuf]
  rfl

end Cert.Gcn.Fold

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RegMM.lean ====
/-
  The two matrix-product regions, on the extended reals: the array each leaves is the whole product.

  Each region walks ten points; point `t` multiplies rows `5000 t … 5000 t + 4999` of the left array by the whole right
  array and writes the result to the same rows of the output. Entry `(r, q)` of a block product and of the whole product
  are both the sum over `k : Fin 128` of `left (row, k) * right (k, q)`, and row `r` of block `t` is row `5000 t + r`
  of the array, so what each point writes back is its block of the whole product; the ten blocks cover the output.
-/
import proofs.«137096_j79577154060348_1_alg».proof.Proof.Gen.KernelIdeal.Frame
import proofs.«137096_j79577154060348_1_alg».proof.Proof.Terms
import proofs.«137096_j79577154060348_1_alg».proof.Proof.LibPlainDot

set_option maxRecDepth 16384

noncomputable section

namespace Cert.Gcn.RegMM

open Idealize.ShloMosaic Idealize.ShloMosaic.TcCoe Idealize.ShloMosaic.ValueIdx Cert.KernelIdeal Cert.KernelIdeal.Gen

/-! ## Region 0: `x · W1` -/

private theorem a_hz : (![0, 0] : Fin 2 → Nat) = fun _ => 0 := funext fun a => by fin_cases a <;> rfl

/-- The first product's payload at an index: the sum over the 128 contraction positions. -/
private theorem a_pay0 (x0 : Vec Ideal S5000x128 .f32) (x1 : Vec Ideal S128x128 .f32) (j : S5000x128.Idx) :
    k0_pay1 (F := Ideal) x0 x1 j = ∑ k : Fin 128, x0 (ix2 (j 0) k) * x1 (ix2 k (j 1)) :=
  Cert.PlainDot.matmul_zero_apply 5000 128 128 none x0 x1 j

/-- The whole first product at an index: the same sum over the whole arrays. -/
private theorem a_dot0 (X : Cert.Gcn.Arr Ideal S50000x128) (W : Cert.Gcn.Arr Ideal S128x128) (i : S50000x128.Idx) :
    Cert.Gcn.dot128 (F := Ideal) X W i = ∑ k : Fin 128, X (ix2 (i 0) k) * W (ix2 k (i 1)) :=
  Cert.PlainDot.dotGeneral_apply 50000 128 128 none .single X W i

/-- A block product at `j` is the whole product at `i` as soon as row `j 0` of the left block is row `i 0` of the left
    array and column `j 1` of the right block is column `i 1` of the right array. -/
private theorem a_point0 (X : Cert.Gcn.Arr Ideal S50000x128) (W : Cert.Gcn.Arr Ideal S128x128)
    (x0 : Vec Ideal S5000x128 .f32) (x1 : Vec Ideal S128x128 .f32) (j : S5000x128.Idx) (i : S50000x128.Idx)
    (h0 : ∀ k : Fin 128, x0 (ix2 (j 0) k) = X (ix2 (i 0) k))
    (h1 : ∀ k : Fin 128, x1 (ix2 k (j 1)) = W (ix2 k (i 1))) :
    k0_pay1 (F := Ideal) x0 x1 j = Cert.Gcn.dot128 (F := Ideal) X W i := by
  rw [a_pay0, a_dot0]
  exact Finset.sum_congr rfl fun k _ => by rw [h0 k, h1 k]

/-- The index maps over the ten points: the left input's row block is the output's, which is the point's number; every other
    block index is zero. -/
private theorem a_idx0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product. -/
private theorem a_flushed0 (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Gcn.dot128 (F := Ideal) (V c main_arg0) (V c main_arg3)) := by
  show (cfg0.win 2).cut (grid0.coords t) ((dat0 V c).after 2 t) = _
  rw [after0_2]
  unfold out0_2
  rw [View.canon_unit_zero a_hz]
  simp only [View.ld_unit_zero (S := S5000x128) a_hz, View.ld_unit_zero (S := S128x128) a_hz]
  obtain ⟨e0, e1, e2, e3, e4, e5⟩ := a_idx0 t
  funext j
  refine a_point0 (V c main_arg0) (V c main_arg3) (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
private theorem a_mem0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Every index of the output array is in some point's block: row `r` is in the block of point `r / 5000`. -/
private theorem a_cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by show (i 0).val / 5000 < 10; omega
  refine ⟨⟨(i 0).val / 5000, hN⟩, flush0_2 _, ?_⟩
  rw [a_mem0]
  obtain ⟨e0, e1, e2, e3, e4, e5⟩ := a_idx0 ⟨(i 0).val / 5000, hN⟩
  have e4' : win0_2.index ⟨(i 0).val / 5000, hN⟩ (0 : Fin 2) = (i 0).val / 5000 := e4
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    omega

/-- Region 0, from any entry contents `V`: its output array ends at `x · W1` of its two input arrays. -/
theorem arr0 (V : (c : Dev nD) → (b : Ref sig .tc) → Buf (Elt Ideal) ((c : Thread nD τ).loc b)) (c : Dev nD) :
    (dat0 (F := Ideal) V c).arrAt 2 cfg0.N = Cert.Gcn.dot128 (F := Ideal) (V c main_arg0) (V c main_arg3) :=
  (dat0 (F := Ideal) V c).arrAt_eq_of_cover 2 _ (fun t _ => a_flushed0 V c t) a_cover0

/-! ## Region 2: `h · W2` -/

/-- The second product's payload at an index: the sum over the 128 contraction positions (the cast to the same shape and
    the changes of format are identities here). -/
private theorem a_pay2 (x0 : Vec Ideal S5000x128 .f32) (x1 : Vec Ideal S128x64 .f32) (j : S5000x64.Idx) :
    k2_pay1 (F := Ideal) x0 x1 j = ∑ k : Fin 128, x0 (ix2 (j 0) k) * x1 (ix2 k (j 1)) := by
  unfold k2_pay1
  rw [shapeCast_self]
  exact Cert.PlainDot.matmul_zero_apply 5000 128 64 none x0 x1 j

/-- The whole second product at an index: the same sum over the whole arrays. -/
private theorem a_dot2 (X : Cert.Gcn.Arr Ideal S50000x128) (W : Cert.Gcn.Arr Ideal S128x64) (i : S50000x64.Idx) :
    Cert.Gcn.dot64 (F := Ideal) X W i = ∑ k : Fin 128, X (ix2 (i 0) k) * W (ix2 k (i 1)) :=
  Cert.PlainDot.dotGeneral_apply 50000 128 64 none .single X W i

/-- A block product at `j` is the whole product at `i` as soon as row `j 0` of the left block is row `i 0` of the left
    array and column `j 1` of the right block is column `i 1` of the right array. -/
private theorem a_point2 (X : Cert.Gcn.Arr Ideal S50000x128) (W : Cert.Gcn.Arr Ideal S128x64)
    (x0 : Vec Ideal S5000x128 .f32) (x1 : Vec Ideal S128x64 .f32) (j : S5000x64.Idx) (i : S50000x64.Idx)
    (h0 : ∀ k : Fin 128, x0 (ix2 (j 0) k) = X (ix2 (i 0) k))
    (h1 : ∀ k : Fin 128, x1 (ix2 k (j 1)) = W (ix2 k (i 1))) :
    k2_pay1 (F := Ideal) x0 x1 j = Cert.Gcn.dot64 (F := Ideal) X W i := by
  rw [a_pay2, a_dot2]
  exact Finset.sum_congr rfl fun k _ => by rw [h0 k, h1 k]

/-- The index maps over the ten points: the left input's row block is the output's, which is the point's number; every other
    block index is zero. -/
private theorem a_idx2 : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the whole product. -/
private theorem a_flushed2 (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Gcn.dot64 (F := Ideal) (V c main_v55) (V c main_arg9)) := by
  show (cfg2.win 2).cut (grid2.coords t) ((dat2 V c).after 2 t) = _
  rw [after2_2]
  unfold out2_2
  rw [View.canon_unit_zero a_hz]
  simp only [View.ld_unit_zero (S := S5000x128) a_hz, View.ld_unit_zero (S := S128x64) a_hz]
  obtain ⟨e0, e1, e2, e3, e4, e5⟩ := a_idx2 t
  funext j
  refine a_point2 (V c main_v55) (V c main_arg9) (iblk2 V c 0 t) (iblk2 V c 1 t) j (((cfg2.win 2).blk t).view.emb j) (fun k => ?_) (fun k => ?_)
  · show V c main_v55 (((cfg2.win 0).blk t).view.emb (ix2 (j 0) k)) = V c main_v55 (ix2 ((((cfg2.win 2).blk t).view.emb j) 0) k)
    refine congrArg (V c main_v55) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg9 (((cfg2.win 1).blk t).view.emb (ix2 k (j 1))) = V c main_arg9 (ix2 k ((((cfg2.win 2).blk t).view.emb j) 1))
    refine congrArg (V c main_arg9) ?_
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the output array is in point `t`'s block iff each coordinate is in the block's range on its axis. -/
private theorem a_mem2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v56).slice (win2_2.rect t)).set ↔ _
  rw [View.set_slice_whole, Rect.mem_set_unit]
  exact Iff.rfl

/-- Every index of the output array is in some point's block: row `r` is in the block of point `r / 5000`. -/
private theorem a_cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : (i 0).val / 5000 < cfg2.N := by show (i 0).val / 5000 < 10; omega
  refine ⟨⟨(i 0).val / 5000, hN⟩, flush2_2 _, ?_⟩
  rw [a_mem2]
  obtain ⟨e0, e1, e2, e3, e4, e5⟩ := a_idx2 ⟨(i 0).val / 5000, hN⟩
  have e4' : win2_2.index ⟨(i 0).val / 5000, hN⟩ (0 : Fin 2) = (i 0).val / 5000 := e4
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    omega
  | ⟨1, _⟩ =>
    show win2_2.index ⟨(i 0).val / 5000, hN⟩ (1 : Fin 2) * 64 ≤ (i 1).val
      ∧ (i 1).val < win2_2.index ⟨(i 0).val / 5000, hN⟩ (1 : Fin 2) * 64 + 64
    omega

/-- Region 2, from any entry contents `V`: its output array ends at `h · W2` of its two input arrays. -/
theorem arr2 (V : (c : Dev nD) → (b : Ref sig .tc) → Buf (Elt Ideal) ((c : Thread nD τ).loc b)) (c : Dev nD) :
    (dat2 (F := Ideal) V c).arrAt 2 cfg2.N = Cert.Gcn.dot64 (F := Ideal) (V c main_v55) (V c main_arg9) :=
  (dat2 (F := Ideal) V c).arrAt_eq_of_cover 2 _ (fun t _ => a_flushed2 V c t) a_cover2

end Cert.Gcn.RegMM

end
-- ==== Proof.RegAff.lean ====
/-
  The two affine regions, on the extended reals: the array each leaves is the columnwise affine map of its input.

  Both regions walk their 50000-row matrix in ten blocks of 5000 rows; the scale and shift rows are read whole at
  every step. What one step writes back is the block of the whole-array map under that step's rows, the ten blocks
  tile the output array, so the array ends holding the whole-array map.
-/
import proofs.«137096_j79577154060348_1_alg».proof.Proof.Gen.KernelIdeal.Frame
import proofs.«137096_j79577154060348_1_alg».proof.Proof.Terms
import Idealize.ShloMosaic.Lib.Pipeline.Value
import Idealize.ShloMosaic.Lib.ValueIdx

set_option maxRecDepth 16384

noncomputable section

namespace Cert.Gcn.RegAff

open Idealize.ShloMosaic Idealize.ShloMosaic.TcCoe Idealize.ShloMosaic.ValueIdx Cert.KernelIdeal Cert.KernelIdeal.Gen

/-- The zero offsets of a rank-2 rectangle, as the constant function. -/
private theorem hb_hz : (![0, 0] : Fin 2 → Nat) = fun _ => 0 := funext fun a => by fin_cases a <;> rfl

/-! ## The first affine region: `max (a · scale + shift) 0` -/

/-- The body's value at an index of the block: the entry times its column's scale plus its column's shift, cut off
    below at zero; the two rows are broadcast down the block's rows, so only the column of the index is read from
    them, and the constant the maximum is taken with is the real number zero. -/
private theorem hb_pay1 (x0 : Vec Ideal S5000x128 .f32) (x1 x2 : Vec Ideal S1x128 .f32) (j : S5000x128.Idx) :
    k1_pay1 x0 x1 x2 j = max (x0 j * x1 (ix2 ⟨0, Nat.one_pos⟩ (j 1)) + x2 (ix2 ⟨0, Nat.one_pos⟩ (j 1))) (0 : EReal) := by
  unfold k1_pay1
  simp only [shapeCast_self]
  rw [maximumf_apply, addf_apply, mulf_apply, broadcast_apply]
  rw [broadcastTo_apply x1 broadcasts_S1x128_S5000x128 j (ix2 ⟨0, Nat.one_pos⟩ (j 1)) (fun a => by
        match a with
        | ⟨0, _⟩ => rfl
        | ⟨1, _⟩ => rfl),
      broadcastTo_apply x2 broadcasts_S1x128_S5000x128 j (ix2 ⟨0, Nat.one_pos⟩ (j 1)) (fun a => by
        match a with
        | ⟨0, _⟩ => rfl
        | ⟨1, _⟩ => rfl)]
  exact congrArg (max _) Ideal.ofBits_zero_f32

/-- One entry of a block against one entry of the whole-array map: when the block's matrix entry is the array's entry,
    the block's two rows are the arrays' rows, and the columns agree, the two values are equal. -/
private theorem hb_pt1 (A : Cert.Gcn.Arr Ideal S50000x128) (S T : Cert.Gcn.Arr Ideal S1x128)
    (x0 : Vec Ideal S5000x128 .f32) (x1 x2 : Vec Ideal S1x128 .f32) (J : S5000x128.Idx) (I : S50000x128.Idx)
    (h0 : x0 J = A I) (h1 : ∀ k, x1 k = S k) (h2 : ∀ k, x2 k = T k) (hI : (J 1).val = (I 1).val) :
    k1_pay1 x0 x1 x2 J = Cert.Gcn.aff1 A S T I := by
  rw [hb_pay1, h0, h1, h2]
  have hJ : J 1 = I 1 := Fin.ext hI
  rw [hJ]
  rfl

/-- The block indices at each of the ten steps: the input matrix moves with the output (row block `t`, column block
    0), both rows stay at block (0, 0), and the output's row block stays below ten. -/
private theorem hb_idx1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 :=
  (by decide +kernel : ∀ t : Fin grid1.N, _)

/-- Every row block of the output is some step's. -/
private theorem hb_onto1 : ∀ q : Fin 10, ∃ t : Fin cfg1.N, win1_3.index t = ![q.val, 0] :=
  (by decide +kernel : ∀ q : Fin 10, ∃ t : Fin grid1.N, win1_3.index t = ![q.val, 0])

/-- What step `t` writes back is the block of the whole-array map under its rows. -/
private theorem hb_flushed1 (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Gcn.aff1 (V c main_v45) (V c main_v53) (V c main_v54)) := by
  show (cfg1.win 3).cut (grid1.coords t) ((dat1 V c).after 3 t) = _
  rw [after1_3]
  unfold out1_3
  rw [View.canon_unit_zero hb_hz]
  simp only [View.ld_unit_zero (S := S5000x128) hb_hz, View.ld_unit_zero (S := S1x128) hb_hz]
  obtain ⟨e0, e1, e2, e3, e4, e5, e6, e7⟩ := hb_idx1 t
  funext j
  refine hb_pt1 (V c main_v45) (V c main_v53) (V c main_v54) (iblk1 V c 0 t) (iblk1 V c 1 t) (iblk1 V c 2 t)
    ((cfg1.win 3).xinj (grid1.coords t) j) (((cfg1.win 3).blk t).view.emb j) ?_ (fun k => ?_) (fun k => ?_) ?_
  · -- the matrix block's entry: the same row block and column block as the output's
    show V c main_v45 (((cfg1.win 0).blk t).view.emb ((cfg1.win 3).xinj (grid1.coords t) j)) = V c main_v45 (((cfg1.win 3).blk t).view.emb j)
    refine congrArg (V c main_v45) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · -- the scale row's block is the whole row
    show V c main_v53 (((cfg1.win 1).blk t).view.emb k) = V c main_v53 k
    refine congrArg (V c main_v53) (funext fun a => Fin.ext ?_)
    match a with
    | ⟨0, _⟩ => show win1_1.index t (0 : Fin 2) * 1 + 1 * (k 0).val = (k 0).val; omega
    | ⟨1, _⟩ => show win1_1.index t (1 : Fin 2) * 128 + 1 * (k 1).val = (k 1).val; omega
  · -- and so is the shift row's
    show V c main_v54 (((cfg1.win 2).blk t).view.emb k) = V c main_v54 k
    refine congrArg (V c main_v54) (funext fun a => Fin.ext ?_)
    match a with
    | ⟨0, _⟩ => show win1_2.index t (0 : Fin 2) * 1 + 1 * (k 0).val = (k 0).val; omega
    | ⟨1, _⟩ => show win1_2.index t (1 : Fin 2) * 128 + 1 * (k 1).val = (k 1).val; omega
  · -- the column inside the block is the column in the array: the output's column block is 0
    show (j 1).val = win1_3.index t (1 : Fin 2) * 128 + 1 * (j 1).val
    omega

/-- An index of the output array is in step `t`'s block iff each coordinate is in the block's range on its axis. -/
private theorem hb_mem1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v55).slice (win1_3.rect t)).set ↔ _
  rw [View.set_slice_whole, Rect.mem_set_unit]
  exact Iff.rfl

/-- Every index of the output array is in some step's block: row `r` is in row block `r / 5000`. -/
private theorem hb_cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := hb_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [hb_mem1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- Region 1, from any entry contents `V`: its output array ends at `max (a · scale + shift) 0`, the two rows
    broadcast down the 50000 rows of `a`. -/
theorem arr1 (V : (c : Dev nD) → (b : Ref sig .tc) → Buf (Elt Ideal) ((c : Thread nD τ).loc b)) (c : Dev nD) :
    (dat1 (F := Ideal) V c).arrAt 3 cfg1.N = Cert.Gcn.aff1 (V c main_v45) (V c main_v53) (V c main_v54) :=
  (dat1 (F := Ideal) V c).arrAt_eq_of_cover 3 _ (fun t _ => hb_flushed1 V c t) hb_cover1

/-! ## The last affine region: `a · scale + shift` -/

/-- The body's value at an index of the block: the entry times its column's scale plus its column's shift; the two
    rows are broadcast down the block's rows, so only the column of the index is read from them. -/
private theorem hb_pay3 (x0 : Vec Ideal S5000x64 .f32) (x1 x2 : Vec Ideal S1x64 .f32) (j : S5000x64.Idx) :
    k3_pay1 x0 x1 x2 j = x0 j * x1 (ix2 ⟨0, Nat.one_pos⟩ (j 1)) + x2 (ix2 ⟨0, Nat.one_pos⟩ (j 1)) := by
  unfold k3_pay1
  simp only [shapeCast_self]
  rw [addf_apply, mulf_apply]
  rw [broadcastTo_apply x1 broadcasts_S1x64_S5000x64 j (ix2 ⟨0, Nat.one_pos⟩ (j 1)) (fun a => by
        match a with
        | ⟨0, _⟩ => rfl
        | ⟨1, _⟩ => rfl),
      broadcastTo_apply x2 broadcasts_S1x64_S5000x64 j (ix2 ⟨0, Nat.one_pos⟩ (j 1)) (fun a => by
        match a with
        | ⟨0, _⟩ => rfl
        | ⟨1, _⟩ => rfl)]

/-- One entry of a block against one entry of the whole-array map: when the block's matrix entry is the array's entry,
    the block's two rows are the arrays' rows, and the columns agree, the two values are equal. -/
private theorem hb_pt3 (A : Cert.Gcn.Arr Ideal S50000x64) (S T : Cert.Gcn.Arr Ideal S1x64)
    (x0 : Vec Ideal S5000x64 .f32) (x1 x2 : Vec Ideal S1x64 .f32) (J : S5000x64.Idx) (I : S50000x64.Idx)
    (h0 : x0 J = A I) (h1 : ∀ k, x1 k = S k) (h2 : ∀ k, x2 k = T k) (hI : (J 1).val = (I 1).val) :
    k3_pay1 x0 x1 x2 J = Cert.Gcn.aff3 A S T I := by
  rw [hb_pay3, h0, h1, h2]
  have hJ : J 1 = I 1 := Fin.ext hI
  rw [hJ]
  rfl

/-- The block indices at each of the ten steps: the input matrix moves with the output (row block `t`, column block
    0), both rows stay at block (0, 0), and the output's row block stays below ten. -/
private theorem hb_idx3 : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 9 :=
  (by decide +kernel : ∀ t : Fin grid3.N, _)

/-- Every row block of the output is some step's. -/
private theorem hb_onto3 : ∀ q : Fin 10, ∃ t : Fin cfg3.N, win3_3.index t = ![q.val, 0] :=
  (by decide +kernel : ∀ q : Fin 10, ∃ t : Fin grid3.N, win3_3.index t = ![q.val, 0])

/-- What step `t` writes back is the block of the whole-array map under its rows. -/
private theorem hb_flushed3 (V : (c : Dev nD) → (b : Ref sig .tc) → Buf (Elt Ideal) ((c : Thread nD τ).loc b)) (c : Dev nD) (t : Fin cfg3.N) :
    (dat3 (F := Ideal) V c).flushed 3 t
      = ((cfg3.win 3).blk t).view.read (Elt Ideal) (Cert.Gcn.aff3 (V c main_v69) (V c main_v71) (V c main_v72)) := by
  show (cfg3.win 3).cut (grid3.coords t) ((dat3 V c).after 3 t) = _
  rw [after3_3]
  unfold out3_3
  rw [View.canon_unit_zero hb_hz]
  simp only [View.ld_unit_zero (S := S5000x64) hb_hz, View.ld_unit_zero (S := S1x64) hb_hz]
  obtain ⟨e0, e1, e2, e3, e4, e5, e6, e7⟩ := hb_idx3 t
  funext j
  refine hb_pt3 (V c main_v69) (V c main_v71) (V c main_v72) (iblk3 V c 0 t) (iblk3 V c 1 t) (iblk3 V c 2 t)
    ((cfg3.win 3).xinj (grid3.coords t) j) (((cfg3.win 3).blk t).view.emb j) ?_ (fun k => ?_) (fun k => ?_) ?_
  · -- the matrix block's entry: the same row block and column block as the output's
    show V c main_v69 (((cfg3.win 0).blk t).view.emb ((cfg3.win 3).xinj (grid3.coords t) j)) = V c main_v69 (((cfg3.win 3).blk t).view.emb j)
    refine congrArg (V c main_v69) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  · -- the scale row's block is the whole row
    show V c main_v71 (((cfg3.win 1).blk t).view.emb k) = V c main_v71 k
    refine congrArg (V c main_v71) (funext fun a => Fin.ext ?_)
    match a with
    | ⟨0, _⟩ => show win3_1.index t (0 : Fin 2) * 1 + 1 * (k 0).val = (k 0).val; omega
    | ⟨1, _⟩ => show win3_1.index t (1 : Fin 2) * 64 + 1 * (k 1).val = (k 1).val; omega
  · -- and so is the shift row's
    show V c main_v72 (((cfg3.win 2).blk t).view.emb k) = V c main_v72 k
    refine congrArg (V c main_v72) (funext fun a => Fin.ext ?_)
    match a with
    | ⟨0, _⟩ => show win3_2.index t (0 : Fin 2) * 1 + 1 * (k 0).val = (k 0).val; omega
    | ⟨1, _⟩ => show win3_2.index t (1 : Fin 2) * 64 + 1 * (k 1).val = (k 1).val; omega
  · -- the column inside the block is the column in the array: the output's column block is 0
    show (j 1).val = win3_3.index t (1 : Fin 2) * 64 + 1 * (j 1).val
    omega

/-- An index of the output array is in step `t`'s block iff each coordinate is in the block's range on its axis. -/
private theorem hb_mem3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v73).slice (win3_3.rect t)).set ↔ _
  rw [View.set_slice_whole, Rect.mem_set_unit]
  exact Iff.rfl

/-- Every index of the output array is in some step's block: row `r` is in row block `r / 5000`. -/
private theorem hb_cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := hb_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [hb_mem3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- Region 3, from any entry contents `V`: its output array ends at `a · scale + shift`. -/
theorem arr3 (V : (c : Dev nD) → (b : Ref sig .tc) → Buf (Elt Ideal) ((c : Thread nD τ).loc b)) (c : Dev nD) :
    (dat3 (F := Ideal) V c).arrAt 3 cfg3.N = Cert.Gcn.aff3 (V c main_v69) (V c main_v71) (V c main_v72) :=
  (dat3 (F := Ideal) V c).arrAt_eq_of_cover 3 _ (fun t _ => hb_flushed3 V c t) hb_cover3

end Cert.Gcn.RegAff

end
-- ==== Proof.Affine.lean ====
/-
  The one place where the two programs differ as formulas: the kernel's folded scale and shift against the reference's
  bias, normalisation, scale and offset, column by column on the extended reals; and what the precondition gives.
-/
import proofs.«137096_j79577154060348_1_alg».proof.Defs
import proofs.«137096_j79577154060348_1_alg».proof.Proof.Gen.Pre_finite_inputs
import proofs.«137096_j79577154060348_1_alg».proof.Proof.Terms
import Idealize.ShloMosaic.PureOps.Ideal.Laws
import Idealize.ShloMosaic.Lib.Pipeline.Value
import Idealize.ShloMosaic.Lib.ValueLayout
import Idealize.ShloMosaic.Lib.ReduceAll

noncomputable section

namespace Cert.Gcn.Affine

open Idealize.ShloMosaic Idealize.ShloMosaic.TcCoe Idealize.ShloMosaic.ValueIdx Cert.ReferenceIdeal Cert.ReferenceIdeal.Read

/-- Every entry of a 128-vector is a real number. -/
def Real128 (x : Arr Ideal S128) : Prop := ∀ k : S128.Idx, ∃ r : ℝ, x k = (r : EReal)

/-- The variance plus ε is positive in every column. -/
def VarPos (x8 : Arr Ideal S128) : Prop := ∀ k : S128.Idx, (0 : EReal) < x8 k + Ideal.ofBits .f32 0x3727C5AC#32

/-! ### The identity on one entry

No array appears here. With real parameters `b1` (bias), `g` (scale), `be` (offset), `mn` (mean), a real factor `r`
and ANY extended real `a`, folding the bias and the mean into one shift does not change the value:
`a · (g r) + (be + (b1 − mn) · (g r)) = (((a + b1) − mn) · r) · g + be`.
For a real `a` this is an identity of the field of reals. For `a = ±∞` adding and subtracting reals leaves `a`
unchanged, the product of extended reals is associative, so both sides are `a · (g r) + (a real)`, and that is
`±∞`, `∓∞` or the real itself according to the sign of `g r`. -/
section Scalar

private theorem affc_scalar (b1 g be mn r : ℝ) (a : EReal) :
    a * ((g : EReal) * (r : EReal)) + ((be : EReal) + ((b1 : EReal) - (mn : EReal)) * ((g : EReal) * (r : EReal)))
      = (((a + (b1 : EReal)) - (mn : EReal)) * (r : EReal)) * (g : EReal) + (be : EReal) := by
  induction a using EReal.rec with
  | bot =>
    rw [EReal.bot_add, EReal.bot_sub, mul_assoc, mul_comm (r : EReal) (g : EReal),
      ← EReal.coe_mul, ← EReal.coe_sub, ← EReal.coe_mul, ← EReal.coe_add]
    rcases lt_trichotomy (g * r) 0 with h | h | h
    · rw [EReal.bot_mul_coe_of_neg h, EReal.top_add_coe, EReal.top_add_coe]
    · rw [h, mul_zero, add_zero, EReal.coe_zero, mul_zero, zero_add]
    · rw [EReal.bot_mul_coe_of_pos h, EReal.bot_add, EReal.bot_add]
  | coe a =>
    rw [← EReal.coe_mul, ← EReal.coe_sub, ← EReal.coe_mul, ← EReal.coe_mul, ← EReal.coe_add, ← EReal.coe_add,
      ← EReal.coe_add, ← EReal.coe_sub, ← EReal.coe_mul, ← EReal.coe_mul, ← EReal.coe_add]
    congr 1
    ring
  | top =>
    rw [EReal.top_add_coe, EReal.top_sub_coe, mul_assoc, mul_comm (r : EReal) (g : EReal),
      ← EReal.coe_mul, ← EReal.coe_sub, ← EReal.coe_mul, ← EReal.coe_add]
    rcases lt_trichotomy (g * r) 0 with h | h | h
    · rw [EReal.top_mul_coe_of_neg h, EReal.bot_add, EReal.bot_add]
    · rw [h, mul_zero, add_zero, EReal.coe_zero, mul_zero, zero_add]
    · rw [EReal.top_mul_coe_of_pos h, EReal.top_add_coe, EReal.top_add_coe]

/-- The reciprocal square root of a positive extended real is a real number (of `+∞` it is `0`). -/
private theorem affc_rsqrt_real (y : EReal) (hy : (0 : EReal) < y) : ∃ r : ℝ, Ideal.rsqrt y = (r : EReal) := by
  induction y using EReal.rec with
  | bot => exact absurd hy (not_lt_bot)
  | coe s =>
    have hs : 0 < s := EReal.coe_pos.mp hy
    rw [Ideal.rsqrt_coe, if_neg (not_lt.mpr hs.le), if_neg hs.ne']
    exact ⟨_, rfl⟩
  | top => exact ⟨0, by rw [Ideal.rsqrt_top, EReal.coe_zero]⟩

/-- The pattern `0x3F800000` is the real number one. -/
private theorem affc_ofBits_one : Ideal.ofBits .f32 0x3F800000#32 = 1 := by
  simp [Ideal.ofBits, Ideal.ieee, -EReal.coe_mul]; norm_num

end Scalar

/-! ### The rows the kernel prepares and the reference's broadcasts, read at an index -/

/-- The scale row at column `k`: `γ · rsqrt (var + ε)`. -/
private theorem affc_scaleRow_apply (x5 x8 : Arr Ideal S128) (u : Fin 1) (k : Fin 128) :
    scaleRow x5 x8 (ix2 u k) = x5 (ix1 k) * Ideal.rsqrt (x8 (ix1 k) + Ideal.ofBits .f32 0x3727C5AC#32) := by
  unfold scaleRow
  rw [shapeCast_a_1a_apply]
  rfl

/-- The shift row at column `k`: `β + (b1 − mean) · scale`. -/
private theorem affc_shiftRow_apply (x4 x5 x6 x7 x8 : Arr Ideal S128) (u : Fin 1) (k : Fin 128) :
    shiftRow x4 x5 x6 x7 x8 (ix2 u k)
      = x6 (ix1 k) + (x4 (ix1 k) - x7 (ix1 k)) * (x5 (ix1 k) * Ideal.rsqrt (x8 (ix1 k) + Ideal.ofBits .f32 0x3727C5AC#32)) := by
  unfold shiftRow
  rw [shapeCast_a_1a_apply]
  rfl

/-- Each parameter vector, made a row and copied down the 50000 rows, reads at `i` the vector at `i`'s column. -/
private theorem affc_v47_apply (x4 : Arr Ideal S128) (i : S50000x128.Idx) : val_main_v47 (F := Ideal) x4 i = x4 (ix1 (i 1)) := by
  rw [val_main_v47_apply, val_main_v46_apply]
  exact congrArg x4 (funext fun d => Fin.ext (by match d with | ⟨0, _⟩ => rfl))

private theorem affc_v50_apply (x7 : Arr Ideal S128) (i : S50000x128.Idx) : val_main_v50 (F := Ideal) x7 i = x7 (ix1 (i 1)) := by
  rw [val_main_v50_apply, val_main_v49_apply]
  exact congrArg x7 (funext fun d => Fin.ext (by match d with | ⟨0, _⟩ => rfl))

private theorem affc_v59_apply (x5 : Arr Ideal S128) (i : S50000x128.Idx) : val_main_v59 (F := Ideal) x5 i = x5 (ix1 (i 1)) := by
  rw [val_main_v59_apply, val_main_v58_apply]
  exact congrArg x5 (funext fun d => Fin.ext (by match d with | ⟨0, _⟩ => rfl))

private theorem affc_v62_apply (x6 : Arr Ideal S128) (i : S50000x128.Idx) : val_main_v62 (F := Ideal) x6 i = x6 (ix1 (i 1)) := by
  rw [val_main_v62_apply, val_main_v61_apply]
  exact congrArg x6 (funext fun d => Fin.ext (by match d with | ⟨0, _⟩ => rfl))

/-- The reference's `rsqrt (var + ε)`, broadcast, at `i`. -/
private theorem affc_v56_apply (x8 : Arr Ideal S128) (i : S50000x128.Idx) :
    val_main_v56 (F := Ideal) x8 i = Ideal.rsqrt (x8 (ix1 (i 1)) + Ideal.ofBits .f32 0x3727C5AC#32) := by
  rw [val_main_v56_apply, val_main_v55_apply, val_main_v54_apply, val_main_v53_apply, val_main_v52_apply, val_main_cst_9_apply,
    Ideal.hostUnary_rsqrt_def, Ideal.addf_def, Ideal.ofBits_def]
  exact congrArg (fun k => Ideal.rsqrt (x8 k + Ideal.ofBits .f32 0x3727C5AC#32))
    (funext fun d => Fin.ext (by match d with | ⟨0, _⟩ => rfl))

/-- The reference's zero, broadcast, at `i`. -/
private theorem affc_zero_apply (i : S50000x128.Idx) : val_main_call1_v0 (F := Ideal) i = 0 := by
  rw [val_main_call1_v0_apply, val_main_call1_cst_apply, Ideal.ofBits_def, Ideal.ofBits_zero_f32]

/-- The row of ones at any column is the real number one. -/
private theorem affc_onesRow_apply (u : Fin 1) (k : Fin 64) : onesRow (F := Ideal) (ix2 u k) = 1 := by
  unfold onesRow
  rw [shapeCast_a_1a_apply]
  exact affc_ofBits_one

/-- The bias row at column `k` is the bias vector at `k`. -/
private theorem affc_biasRow_apply (x10 : Arr Ideal S64) (u : Fin 1) (k : Fin 64) : biasRow x10 (ix2 u k) = x10 (ix1 k) := by
  unfold biasRow
  rw [shapeCast_a_1a_apply]

/-- The reference's bias, made a row and copied down the rows, reads the bias vector at `i`'s column. -/
private theorem affc_v108_apply (x10 : Arr Ideal S64) (i : S50000x64.Idx) : val_main_v108 (F := Ideal) x10 i = x10 (ix1 (i 1)) := by
  rw [val_main_v108_apply, val_main_v107_apply]
  exact congrArg x10 (funext fun d => Fin.ext (by match d with | ⟨0, _⟩ => rfl))

/-! ### Reading the precondition

The precondition is a conjunction of one-bit words, one per floating-point input: "every entry of `|x|` is below `+∞`", and last
"every entry of `var + ε` is above zero". Each conjunct that is one gives its fact at every index. -/

private instance affc_subsingleton : Subsingleton Cert.Pre_finite_inputs.S_.Idx := ⟨fun a b => funext fun d => d.elim0⟩

/-- An extended real whose absolute value is below `+∞` is a real number. -/
private theorem affc_real_of_finite (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The comparison "greater than the pattern of zero" says the value is positive. -/
private theorem affc_pos_of_cmp (y : EReal) (h : Ideal.cmp .ogt y (Ideal.ofBits .f32 0x00000000#32) = 1#1) : (0 : EReal) < y := by
  rw [Ideal.ofBits_zero_f32] at h
  by_contra hn
  simp [Ideal.cmp, hn] at h

/-- Both conjuncts of a one-bit conjunction that is one are one. -/
private theorem affc_and (p q : IVec Cert.Pre_finite_inputs.S_ 1) (h : andi p q ix0 = 1#1) : p ix0 = 1#1 ∧ q ix0 = 1#1 :=
  IntOp.andi_eq_one.1 h

/-- "All entries of `|x|` are below `+∞`" makes every entry of a 128-vector real. -/
private theorem affc_real128_of_all (x : FVec Ideal Cert.Pre_finite_inputs.S128 .f32) (hb : Cert.Pre_finite_inputs.S_.BroadcastsInDim Cert.Pre_finite_inputs.S128 ![])
    (hr : Cert.Pre_finite_inputs.S128.ReducesTo [0] Cert.Pre_finite_inputs.S_) (hu : 0 < Cert.Pre_finite_inputs.S_.numel)
    (h : Host.reduce IntOp.andi (cmpf (F := Ideal) .olt (Host.absf (F := Ideal) x) (broadcastInDim Cert.Pre_finite_inputs.S128 ![] hb (constant (F := Ideal) Cert.Pre_finite_inputs.S_ .f32 0x7F800000#32)))
      (constantI Cert.Pre_finite_inputs.S_ 1 1#1) hr hu ix0 = 1#1) : Real128 x := by
  intro k
  exact affc_real_of_finite (x k) (Host.reduce_andi_all _ _ hr hu ix0 h k)

/-- "All entries of `x + ε` are above zero". -/
private theorem affc_varPos_of_all (x : FVec Ideal Cert.Pre_finite_inputs.S128 .f32) (hb : Cert.Pre_finite_inputs.S_.BroadcastsInDim Cert.Pre_finite_inputs.S128 ![])
    (hr : Cert.Pre_finite_inputs.S128.ReducesTo [0] Cert.Pre_finite_inputs.S_) (hu : 0 < Cert.Pre_finite_inputs.S_.numel)
    (h : Host.reduce IntOp.andi (cmpf (F := Ideal) .ogt (addf (F := Ideal) x (broadcastInDim Cert.Pre_finite_inputs.S128 ![] hb (constant (F := Ideal) Cert.Pre_finite_inputs.S_ .f32 0x3727C5AC#32)))
        (broadcastInDim Cert.Pre_finite_inputs.S128 ![] hb (constant (F := Ideal) Cert.Pre_finite_inputs.S_ .f32 0x00000000#32)))
      (constantI Cert.Pre_finite_inputs.S_ 1 1#1) hr hu ix0 = 1#1) : VarPos x := by
  intro k
  exact affc_pos_of_cmp _ (Host.reduce_andi_all _ _ hr hu ix0 h k)

/-! ### The three statements -/

/-- What the precondition says of the five parameter vectors of the normalisation: all finite, and variance plus ε
    positive. -/
theorem of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Real128 (m ((c.tc : Thread Cert.KernelIdeal.nD Cert.KernelIdeal.τ).loc Cert.KernelIdeal.main_arg4))
    ∧ Real128 (m ((c.tc : Thread Cert.KernelIdeal.nD Cert.KernelIdeal.τ).loc Cert.KernelIdeal.main_arg5))
    ∧ Real128 (m ((c.tc : Thread Cert.KernelIdeal.nD Cert.KernelIdeal.τ).loc Cert.KernelIdeal.main_arg6))
    ∧ Real128 (m ((c.tc : Thread Cert.KernelIdeal.nD Cert.KernelIdeal.τ).loc Cert.KernelIdeal.main_arg7))
    ∧ Real128 (m ((c.tc : Thread Cert.KernelIdeal.nD Cert.KernelIdeal.τ).loc Cert.KernelIdeal.main_arg8))
    ∧ VarPos (m ((c.tc : Thread Cert.KernelIdeal.nD Cert.KernelIdeal.τ).loc Cert.KernelIdeal.main_arg8)) := by
  have e := congrFun (hpre c) ValueIdx.ix0
  dsimp only [Cert.Pre_finite_inputs.fn, Cert.Pre_finite_inputs.fn_part1, Cert.Pre_finite_inputs.fn_part2,
    Cert.Pre_finite_inputs.fn_part3] at e
  -- the conjunction, peeled from its last conjunct (variance plus ε positive) back to the one of the first bias vector
  obtain ⟨e9, hvar⟩ := affc_and _ _ e
  obtain ⟨e8, -⟩ := affc_and _ _ e9
  obtain ⟨e7, -⟩ := affc_and _ _ e8
  obtain ⟨e6, h8⟩ := affc_and _ _ e7
  obtain ⟨e5, h7⟩ := affc_and _ _ e6
  obtain ⟨e4, h6⟩ := affc_and _ _ e5
  obtain ⟨e3, h5⟩ := affc_and _ _ e4
  obtain ⟨-, h4⟩ := affc_and _ _ e3
  exact ⟨affc_real128_of_all _ _ _ _ h4, affc_real128_of_all _ _ _ _ h5, affc_real128_of_all _ _ _ _ h6,
    affc_real128_of_all _ _ _ _ h7, affc_real128_of_all _ _ _ _ h8, affc_varPos_of_all _ _ _ _ hvar⟩

/-- With finite parameters and positive variance plus ε, the kernel's `max (a · scale + shift) 0` is the reference's
    `max ((((a + b1) - mean) · rsqrt (var + ε)) · γ + β) 0`, for every extended-real matrix `a`. -/
theorem aff1_bn (x4 x5 x6 x7 x8 : Arr Ideal S128) (h4 : Real128 x4) (h5 : Real128 x5) (h6 : Real128 x6) (h7 : Real128 x7)
    (h8 : Real128 x8) (hpos : VarPos x8) (a : Arr Ideal S50000x128) :
    aff1 a (scaleRow x5 x8) (shiftRow x4 x5 x6 x7 x8) = bnRelu a x4 x5 x6 x7 x8 := by
  funext i
  have hL : aff1 a (scaleRow x5 x8) (shiftRow x4 x5 x6 x7 x8) i
      = max (a i * scaleRow x5 x8 (ix2 ⟨0, Nat.one_pos⟩ (i 1)) + shiftRow x4 x5 x6 x7 x8 (ix2 ⟨0, Nat.one_pos⟩ (i 1))) (0 : EReal) := rfl
  have hR : bnRelu a x4 x5 x6 x7 x8 i
      = max ((((a i + val_main_v47 (F := Ideal) x4 i) - val_main_v50 (F := Ideal) x7 i) * val_main_v56 (F := Ideal) x8 i)
          * val_main_v59 (F := Ideal) x5 i + val_main_v62 (F := Ideal) x6 i) (val_main_call1_v0 (F := Ideal) i) := rfl
  have hs : scaleRow x5 x8 (ix2 ⟨0, Nat.one_pos⟩ (i 1)) = _ := affc_scaleRow_apply x5 x8 ⟨0, Nat.one_pos⟩ (i 1)
  have ht : shiftRow x4 x5 x6 x7 x8 (ix2 ⟨0, Nat.one_pos⟩ (i 1)) = _ := affc_shiftRow_apply x4 x5 x6 x7 x8 ⟨0, Nat.one_pos⟩ (i 1)
  rw [hL, hR, hs, ht, affc_v47_apply, affc_v50_apply, affc_v56_apply, affc_v59_apply,
    affc_v62_apply, affc_zero_apply]
  obtain ⟨b1, e4⟩ := h4 (ix1 (i 1))
  obtain ⟨g, e5⟩ := h5 (ix1 (i 1))
  obtain ⟨be, e6⟩ := h6 (ix1 (i 1))
  obtain ⟨mn, e7⟩ := h7 (ix1 (i 1))
  obtain ⟨r, er⟩ := affc_rsqrt_real _ (hpos (ix1 (i 1)))
  rw [er, e4, e5, e6, e7, affc_scalar]

/-- The last affine map, with scale one, is the addition of the bias row. -/
theorem aff3_bias (z : Arr Ideal S50000x64) (x10 : Arr Ideal S64) :
    aff3 z onesRow (biasRow x10) = addf (F := Ideal) (φ := .f32) z (val_main_v108 (F := Ideal) x10) := by
  funext i
  have hL : aff3 z onesRow (biasRow x10) i
      = z i * onesRow (F := Ideal) (ix2 ⟨0, Nat.one_pos⟩ (i 1)) + biasRow x10 (ix2 ⟨0, Nat.one_pos⟩ (i 1)) := rfl
  have hR : addf (F := Ideal) (φ := .f32) z (val_main_v108 (F := Ideal) x10) i = z i + val_main_v108 (F := Ideal) x10 i := rfl
  have ho : onesRow (F := Ideal) (ix2 ⟨0, Nat.one_pos⟩ (i 1)) = 1 := affc_onesRow_apply ⟨0, Nat.one_pos⟩ (i 1)
  have hb : biasRow x10 (ix2 ⟨0, Nat.one_pos⟩ (i 1)) = _ := affc_biasRow_apply x10 ⟨0, Nat.one_pos⟩ (i 1)
  rw [hL, hR, ho, hb, mul_one, affc_v108_apply]

end Cert.Gcn.Affine

end
-- ==== Proof.lean ====
/-
  The claim: a two-layer graph convolution network, tiled kernel against plain reference.

  Both programs compute  out = Agg (relu (BN (Agg (x · W1) + b1)) · W2) + b2  (Proof/Terms.lean). The kernel's run
  ends with its result buffer at the last boundary of the fold through its segments (Proof/RunK.lean), which reads
  back as the composition over what its four regions compute (Proof/Fold.lean, Proof/FoldRead.lean): the two matrix
  products are the reference's own products (Proof/RegMM.lean), and the two affine regions compute
  `max (a · scale + shift) 0` and `a · 1 + b2` (Proof/RegAff.lean). The reference's run ends at its own composition.
  The two compositions differ only in how bias, mean, variance, γ and β enter: the kernel folds them into one scale row
  and one shift row. Column by column that is distributivity over the extended reals, which holds because the five
  parameter vectors are finite and variance plus ε is positive (Proof/Affine.lean; this is where the precondition is
  used — the aggregated matrix itself is never assumed finite). Everything else — the edge arithmetic, the
  aggregations, the products — is the same function on both sides and is never opened.
  The three frames are the generated ones (the reference's is its run with the result dropped); the idealization
  rewrote nothing, so `preserves` is trivial.
-/
import proofs.«137096_j79577154060348_1_alg».proof.Defs
import proofs.«137096_j79577154060348_1_alg».proof.Proof.Gen.Kernel
import proofs.«137096_j79577154060348_1_alg».proof.Proof.Gen.Kernel.Frame
import proofs.«137096_j79577154060348_1_alg».proof.Proof.Gen.KernelIdeal
import proofs.«137096_j79577154060348_1_alg».proof.Proof.Gen.KernelIdeal.Frame
import proofs.«137096_j79577154060348_1_alg».proof.Proof.Gen.ReferenceIdeal
import proofs.«137096_j79577154060348_1_alg».proof.Proof.Gen.Pre_finite_inputs
import proofs.«137096_j79577154060348_1_alg».proof.Proof.Gen.ReferenceIdeal.Run
import proofs.«137096_j79577154060348_1_alg».proof.Proof.Gen.ReferenceIdeal.Read
import proofs.«137096_j79577154060348_1_alg».proof.Proof.Terms
import proofs.«137096_j79577154060348_1_alg».proof.Proof.RunK
import proofs.«137096_j79577154060348_1_alg».proof.Proof.FoldRead
import proofs.«137096_j79577154060348_1_alg».proof.Proof.RegMM
import proofs.«137096_j79577154060348_1_alg».proof.Proof.RegAff
import proofs.«137096_j79577154060348_1_alg».proof.Proof.Affine
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals the kernel's four regions compute the two products and the two affine maps. -/
theorem regions : Cert.Gcn.Fold.Regions (F := Ideal) Cert.Gcn.dot128 Cert.Gcn.aff1 Cert.Gcn.dot64 Cert.Gcn.aff3 :=
  ⟨Cert.Gcn.RegMM.arr0, Cert.Gcn.RegAff.arr1, Cert.Gcn.RegMM.arr2, Cert.Gcn.RegAff.arr3⟩

/-- Under the precondition the kernel's composition is the reference's: the last affine map with scale one adds the
    bias, and the folded scale and shift are the reference's normalisation. -/
theorem terms_eq (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      = Cert.Gcn.kernelTerm (F := Ideal) Cert.Gcn.dot128 Cert.Gcn.aff1 Cert.Gcn.dot64 Cert.Gcn.aff3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  obtain ⟨h4, h5, h6, h7, h8, hpos⟩ := Cert.Gcn.Affine.of_pre m hpre c
  rw [Cert.Gcn.refTerm_eq]
  unfold Cert.Gcn.kernelTerm
  rw [Cert.Gcn.Affine.aff3_bias, Cert.Gcn.Affine.aff1_bn _ _ _ _ _ h4 h5 h6 h7 h8 hpos]

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W9 m ρ c (Proc.devRef .tc Cert.KernelIdeal.main_v73), Cert.Gcn.RunK.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v109_eq, e0, e1, e2, e3, e4, e5, e6, e7, e8, e9, e10, terms_eq m hpre c]
  exact (Cert.Gcn.Fold.result_eq m ρ regions c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
